-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x512 : Shape := ⟨2, ![4096, 512]⟩
abbrev S4096x64 : Shape := ⟨2, ![4096, 64]⟩
abbrev S64x1024 : Shape := ⟨2, ![64, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x64 : S_.BroadcastsInDim S4096x64 (![] : Fin 0 → Fin S4096x64.rank)
  reducesTo_S4096x64_S_d0_1 : S4096x64.ReducesTo [0, 1] S_
  bcast_S_S64x1024 : S_.BroadcastsInDim S64x1024 (![] : Fin 0 → Fin S64x1024.rank)
  reducesTo_S64x1024_S_d0_1 : S64x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024x1024 .f32) (main_arg12 : FVec F S1024 .f32) (main_arg13 : FVec F S1024x1024 .f32) (main_arg14 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S64x1024 .f32) (main_arg8 : FVec F S512x1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_v33 : IVec S_ 1) : IVec S_ 1 :=
  let main_v34 : FVec F S64x1024 .f32 := Host.absf main_arg7
  let main_cst_12 : FVec F S_ .f32 := constant S_ .f32 0x7F800000#32
  let main_v35 : FVec F S64x1024 .f32 := broadcastInDim S64x1024 ![] bcast_S_S64x1024 main_cst_12
  let main_v36 : IVec S64x1024 1 := cmpf .olt main_v34 main_v35
  let main_c_13 : IVec S_ 1 := constantI S_ 1 1#1
  let main_v37 : IVec S_ 1 := (fun x v => Host.reduce IntOp.andi x v reducesTo_S64x1024_S_d0_1 h_S_) main_v36 main_c_13
  let main_v38 : IVec S_ 1 := andi main_v33 main_v37
  let main_v39 : FVec F S512x1024 .f32 := Host.absf main_arg8
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S512x1024 .f32) (main_arg5 : FVec F S64x1024 .f32) (main_arg6 : FVec F S512x1024 .f32) (main_arg7 : FVec F S64x1024 .f32) (main_arg8 : FVec F S512x1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x512 .f32) (main_arg2 : FVec F S4096x64 .f32) (main_arg3 : FVec F S64x1024 .f32) (main_arg4 : FVec F S512x1024 .f32) (main_arg5 : FVec F S64x1024 .f32) (main_arg6 : FVec F S512x1024 .f32) (main_arg7 : FVec F S64x1024 .f32) (main_arg8 : FVec F S512x1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S4096x512 : Shape := ⟨2, ![4096, 512]⟩
abbrev S4096x64 : Shape := ⟨2, ![4096, 64]⟩
abbrev S64x1024 : Shape := ⟨2, ![64, 1024]⟩
abbrev S512x1024 : Shape := ⟨2, ![512, 1024]⟩
abbrev S1024x1024 : Shape := ⟨2, ![1024, 1024]⟩
abbrev S1024 : Shape := ⟨1, ![1024]⟩
abbrev S64x3072 : Shape := ⟨2, ![64, 3072]⟩
abbrev S512x3072 : Shape := ⟨2, ![512, 3072]⟩
abbrev S1024x3072 : Shape := ⟨2, ![1024, 3072]⟩
abbrev S3072 : Shape := ⟨1, ![3072]⟩
abbrev S1x3072 : Shape := ⟨2, ![1, 3072]⟩
abbrev S256x1024 : Shape := ⟨2, ![256, 1024]⟩
abbrev S256x512 : Shape := ⟨2, ![256, 512]⟩
abbrev S256x64 : Shape := ⟨2, ![256, 64]⟩
abbrev S256x3072 : Shape := ⟨2, ![256, 3072]⟩

abbrev nBuf : Space → Nat
  | .hbm => 24
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x64, .f32⟩
  | .hbm, ⟨3, _⟩ => ⟨S64x1024, .f32⟩
  | .hbm, ⟨4, _⟩ => ⟨S512x1024, .f32⟩
  | .hbm, ⟨5, _⟩ => ⟨S64x1024, .f32⟩
  | .hbm, ⟨6, _⟩ => ⟨S512x1024, .f32⟩
  | .hbm, ⟨7, _⟩ => ⟨S64x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S64x3072, .f32⟩
  | .hbm, ⟨16, _⟩ => ⟨S64x3072, .bf16⟩
  | .hbm, ⟨17, _⟩ => ⟨S512x3072, .f32⟩
  | .hbm, ⟨18, _⟩ => ⟨S512x3072, .bf16⟩
  | .hbm, ⟨19, _⟩ => ⟨S1024x3072, .f32⟩
  | .hbm, ⟨20, _⟩ => ⟨S1024x3072, .bf16⟩
  | .hbm, ⟨21, _⟩ => ⟨S3072, .f32⟩
  | .hbm, ⟨22, _⟩ => ⟨S1x3072, .f32⟩
  | .hbm, ⟨23, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x64, .f32⟩
  | .local _ .vmem, ⟨5, _⟩ => ⟨S256x64, .f32⟩
  | .local _ .vmem, ⟨6, _⟩ => ⟨S64x3072, .bf16⟩
  | .local _ .vmem, ⟨7, _⟩ => ⟨S512x3072, .bf16⟩
  | .local _ .vmem, ⟨8, _⟩ => ⟨S1024x3072, .bf16⟩
  | .local _ .vmem, ⟨9, _⟩ => ⟨S1x3072, .f32⟩
  | .local _ .vmem, ⟨10, _⟩ => ⟨S256x1024, .f32⟩
  | .local _ .vmem, ⟨11, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S64x1024_S64x1024_S64x1024_S64x3072_d1 : Shape.Concatenates [S64x1024, S64x1024, S64x1024] S64x3072 1
  bitsLt_bf16_f32 : FTy.bits .bf16 < FTy.bits .f32
  concatenates_S512x1024_S512x1024_S512x1024_S512x3072_d1 : Shape.Concatenates [S512x1024, S512x1024, S512x1024] S512x3072 1
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  inb_S256x512_S256x512_0_0 : ∀ a, (![0, 0] : Fin 2 → Nat) a + S256x512.size a ≤ S256x512.size a
  h_S256x512 : 0 < S256x512.numel
  inb_S256x64_S256x64_0_0 : ∀ a, (![0, 0] : Fin 2 → Nat) a + S256x64.size a ≤ S256x64.size a
  h_S256x64 : 0 < S256x64.numel
  inb_S64x3072_S64x3072_0_0 : ∀ a, (![0, 0] : Fin 2 → Nat) a + S64x3072.size a ≤ S64x3072.size a
  h_S64x3072 : 0 < S64x3072.numel
  shapeCasts_S64x3072_S64x3072 : S64x3072.ShapeCasts S64x3072
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S256x64_S64x3072_S256x3072_1_0_0_1_n_n_wf : DotDims.WF S256x64 S64x3072 S256x3072 [1] [0] [0] [1] [] []
  dot_S256x512_S512x3072_S256x3072_1_0_0_1_n_n_wf : DotDims.WF S256x512 S512x3072 S256x3072 [1] [0] [0] [1] [] []
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S4096x512.size a
  hwx0_1 : ∀ i : grid0.Coords, EltTy.bits .f32 = 32 ∨ (Rect.block (s := S4096x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S4096x64.size a
  hwx0_2 : ∀ i : grid0.Coords, EltTy.bits .f32 = 32 ∨ (Rect.block (s := S4096x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x3072.size a ≤ S64x3072.size a
  hwx0_3 : ∀ i : grid0.Coords, EltTy.bits .bf16 = 32 ∨ (Rect.block (s := S64x3072) S64x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x3072.size a ≤ S512x3072.size a
  hwx0_4 : ∀ i : grid0.Coords, EltTy.bits .bf16 = 32 ∨ (Rect.block (s := S512x3072) S512x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x3072.size a ≤ S1024x3072.size a
  hwx0_5 : ∀ i : grid0.Coords, EltTy.bits .bf16 = 32 ∨ (Rect.block (s := S1024x3072) S1024x3072.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3072.size a ≤ S1x3072.size a
  hwx0_6 : ∀ i : grid0.Coords, EltTy.bits .f32 = 32 ∨ (Rect.block (s := S1x3072) S1x3072.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x64_S64x3072_S256x3072_1_0_0_1_n_n : DotDims S256x64 S64x3072 S256x3072 where
  lhsContracting := [1]
  rhsContracting := [0]
  lhsNonContracting := [0]
  rhsNonContracting := [1]
  lhsBatch := []
  rhsBatch := []
  wf := dot_S256x64_S64x3072_S256x3072_1_0_0_1_n_n_wf
def dot_S256x512_S512x3072_S256x3072_1_0_0_1_n_n : DotDims S256x512 S512x3072 S256x3072 where
  lhsContracting := [1]
  rhsContracting := [0]
  lhsNonContracting := [0]
  rhsNonContracting := [1]
  lhsBatch := []
  rhsBatch := []
  wf := dot_S256x512_S512x3072_S256x3072_1_0_0_1_n_n_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x512 : Shape := ⟨2, ![4096, 512]⟩
abbrev S4096x64 : Shape := ⟨2, ![4096, 64]⟩
abbrev S64x1024 : Shape := ⟨2, ![64, 1024]⟩
abbrev S512x1024 : Shape := ⟨2, ![512, 1024]⟩
abbrev S1024x1024 : Shape := ⟨2, ![1024, 1024]⟩
abbrev S1024 : Shape := ⟨1, ![1024]⟩
abbrev S64x3072 : Shape := ⟨2, ![64, 3072]⟩
abbrev S512x3072 : Shape := ⟨2, ![512, 3072]⟩
abbrev S1024x3072 : Shape := ⟨2, ![1024, 3072]⟩
abbrev S3072 : Shape := ⟨1, ![3072]⟩
abbrev S4096x3072 : Shape := ⟨2, ![4096, 3072]⟩
abbrev S1x3072 : Shape := ⟨2, ![1, 3072]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x64, .f32⟩
  | .hbm, ⟨3, _⟩ => ⟨S64x1024, .f32⟩
  | .hbm, ⟨4, _⟩ => ⟨S512x1024, .f32⟩
  | .hbm, ⟨5, _⟩ => ⟨S64x1024, .f32⟩
  | .hbm, ⟨6, _⟩ => ⟨S512x1024, .f32⟩
  | .hbm, ⟨7, _⟩ => ⟨S64x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S64x3072, .f32⟩
  | .hbm, ⟨16, _⟩ => ⟨S512x3072, .f32⟩
  | .hbm, ⟨17, _⟩ => ⟨S1024x3072, .f32⟩
  | .hbm, ⟨18, _⟩ => ⟨S3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S1x3072, .f32⟩
  | .hbm, ⟨23, _⟩ => ⟨S4096x3072, .f32⟩
  | .hbm, ⟨24, _⟩ => ⟨S4096x3072, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_cst_0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_1 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]

class Facts₀ : Prop where
  concatenates_S64x1024_S64x1024_S64x1024_S64x3072_d1 : Shape.Concatenates [S64x1024, S64x1024, S64x1024] S64x3072 1
  concatenates_S512x1024_S512x1024_S512x1024_S512x3072_d1 : Shape.Concatenates [S512x1024, S512x1024, S512x1024] S512x3072 1
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  bcast_S3072_S1x3072_1 : S3072.BroadcastsInDim S1x3072 (![1] : Fin 1 → Fin S1x3072.rank)
  bcast_S1x3072_S4096x3072_0_1 : S1x3072.BroadcastsInDim S4096x3072 (![0, 1] : Fin 2 → Fin S4096x3072.rank)
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  bcast_S_S4096x1024 : S_.BroadcastsInDim S4096x1024 (![] : Fin 0 → Fin S4096x1024.rank)
  dot_S4096x64_S64x3072_S4096x3072_1_0_0_1_n_n_wf : DotDims.WF S4096x64 S64x3072 S4096x3072 [1] [0] [0] [1] [] []
  dot_S4096x512_S512x3072_S4096x3072_1_0_0_1_n_n_wf : DotDims.WF S4096x512 S512x3072 S4096x3072 [1] [0] [0] [1] [] []
  dot_S4096x1024_S1024x3072_S4096x3072_1_0_0_1_n_n_wf : DotDims.WF S4096x1024 S1024x3072 S4096x3072 [1] [0] [0] [1] [] []

variable [Facts₀]

def dot_S4096x64_S64x3072_S4096x3072_1_0_0_1_n_n : DotDims S4096x64 S64x3072 S4096x3072 where
  lhsContracting := [1]
  rhsContracting := [0]
  lhsNonContracting := [0]
  rhsNonContracting := [1]
  lhsBatch := []
  rhsBatch := []
  wf := dot_S4096x64_S64x3072_S4096x3072_1_0_0_1_n_n_wf
def dot_S4096x512_S512x3072_S4096x3072_1_0_0_1_n_n : DotDims S4096x512 S512x3072 S4096x3072 where
  lhsContracting := [1]
  rhsContracting := [0]
  lhsNonContracting := [0]
  rhsNonContracting := [1]
  lhsBatch := []
  rhsBatch := []
  wf := dot_S4096x512_S512x3072_S4096x3072_1_0_0_1_n_n_wf
def dot_S4096x1024_S1024x3072_S4096x3072_1_0_0_1_n_n : DotDims S4096x1024 S1024x3072 S4096x3072 where
  lhsContracting := [1]
  rhsContracting := [0]
  lhsNonContracting := [0]
  rhsNonContracting := [1]
  lhsBatch := []
  rhsBatch := []
  wf := dot_S4096x1024_S1024x3072_S4096x3072_1_0_0_1_n_n_wf

class Facts : Prop extends Facts₀ where

variable [Facts]
-- ==== Proof.KernelEntry.lean ====
/-
  The GRU cell's program up to and around its one pipelined region.

  Before the region the program lays the nine weight matrices side by side, three at a time, into the three wide
  matrices [64, 3072], [512, 3072], [1024, 3072] (each then narrowed to the 16-bit format), and the three bias
  vectors end to end into one row [1, 3072]. None of these eight host lines writes an argument array, so the
  region finds every argument as launched. The region walks the 4096 batch rows in 16 blocks of 256: at block t it is
  handed rows 256·t … 256·t + 255 of the carry, the spikes and the external input, and the whole of each wide
  matrix and of the bias row (these four are fetched once, at the first block, and stay in place since their block
  index never moves). Whichever of a window's staging buffers is current at a point, it holds that window's block
  there.
-/
import proofs.«141917_j37555194036855_2_alg».proof.Proof.Gen.Kernel.Launch
import proofs.«141917_j37555194036855_2_alg».proof.Proof.Gen.Kernel.Skeleton
import proofs.«141917_j37555194036855_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the eight host lines. -/
abbrev V (c : Dev nD) (b : Ref sig .tc) : Buf (Elt F) ((c : Thread nD τ).loc b) :=
  StableHlo.after hostOps0 (fun b => m (c, b)) b

/-- No host line allocates a buffer. -/
theorem hostOps0_fresh : (hostOps0 : List (HloOp τ sig (Elt F))).Forall fun op => op.fresh = ∅ := by
  simp only [List.Forall]; repeat' constructor

/-- The program is its host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (not fetched, its
    block index has not moved since the point before), for any proof data whose arrays are the region-entry contents
    and whose body leaves the input blocks in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end Cert.Kernel.Region

end
-- ==== Proof.KernelBody.lean ====
/-
  The GRU cell's kernel at one block of 256 batch rows, and the run of the whole region.

  At a block the body reads its seven input blocks whole, computes the three wide products, the gates and the blend,
  and stores the 256 × 1024 result over the whole of the output block; it keeps nothing from block to block. So after
  the body the output's staging buffer holds one function of the seven input blocks (the one store, covering the
  buffer), and each input buffer holds its block as before. With that, the pipelined region runs to the end: every
  execution terminates, nothing faults, each argument array ends as launched, and the result array ends
  holding, block by block, what each point wrote back.
-/
import proofs.«141917_j37555194036855_2_alg».proof.Proof.KernelEntry

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every block read or written whole -/

abbrev rIn0 : Rect S256x1024 := Rect.unit (s := S256x1024) ![0, 0] S256x1024.size inb_S256x1024_S256x1024_0_0
abbrev rIn1 : Rect S256x512 := Rect.unit (s := S256x512) ![0, 0] S256x512.size inb_S256x512_S256x512_0_0
abbrev rIn2 : Rect S256x64 := Rect.unit (s := S256x64) ![0, 0] S256x64.size inb_S256x64_S256x64_0_0
abbrev rIn3 : Rect S64x3072 := Rect.unit (s := S64x3072) ![0, 0] S64x3072.size inb_S64x3072_S64x3072_0_0
abbrev rIn4 : Rect S512x3072 := Rect.unit (s := S512x3072) ![0, 0] S512x3072.size inb_S512x3072_S512x3072_0_0
abbrev rIn5 : Rect S1024x3072 := Rect.unit (s := S1024x3072) ![0, 0] S1024x3072.size inb_S1024x3072_S1024x3072_0_0
abbrev rIn6 : Rect S1x3072 := Rect.unit (s := S1x3072) ![0, 0] S1x3072.size inb_S1x3072_S1x3072_0_0
abbrev rOut : Rect S256x1024 := Rect.unit (s := S256x1024) ![0, 0] S256x1024.size inb_S256x1024_S256x1024_0_0

/-! ## What the body leaves in the output block -/

/-- The output block after the body, from the seven input blocks: the update gate `z` (the payload the body keeps
    for the blend), the candidate times `1 - z`, and the blend `(1 - z) · n + z · h` stored over the whole block. -/
def outBlock (x0 : Vec F S256x1024 .f32) (x1 : Vec F S256x512 .f32) (x2 : Vec F S256x64 .f32) (x3 : Vec F S64x3072 .bf16) (x4 : Vec F S512x3072 .bf16) (x5 : Vec F S1024x3072 .bf16) (x6 : Vec F S1x3072 .f32) : Vec F S256x1024 .f32 :=
  View.canon [⟨rOut, k0_pay1 (View.ld x0 rIn0) (k0_pay5 (View.ld x0 rIn0) (View.ld x1 rIn1) (View.ld x2 rIn2) (View.ld x3 rIn3) (View.ld x4 rIn4) (View.ld x5 rIn5) (View.ld x6 rIn6)) (k0_pay6 (View.ld x0 rIn0) (View.ld x1 rIn1) (View.ld x2 rIn2) (View.ld x3 rIn3) (View.ld x4 rIn4) (View.ld x5 rIn5) (View.ld x6 rIn6))⟩]

/-- The one store covers the block. -/
theorem outCover (p0 : Vec F S256x1024 .f32) (y : S256x1024.Idx) :
    ∃ pc ∈ ([⟨rOut, p0⟩] : List (View.Piece (Elt F) S256x1024 .f32)), y ∈ pc.1.set :=
  View.cover_of_tiled [⟨rOut, p0⟩] S256x1024.size (by rfl) y

/-! ## The body's triple -/

set_option maxHeartbeats 1000000 in
/-- The body on whole staging buffers, the inputs' at contents `x0 … x6` and the output's at anything, runs to its end
    holding the inputs' as they were and the output's at `outBlock` of them. -/
theorem sound_kernel (c : Dev nD) (E : Set ℕ) (i : grid0.Coords) (arg1 : Memref sig .tc .vmem S256x1024 .f32) (harg1 : arg1.IsWhole) (arg2 : Memref sig .tc .vmem S256x512 .f32) (harg2 : arg2.IsWhole) (arg3 : Memref sig .tc .vmem S256x64 .f32) (harg3 : arg3.IsWhole) (arg4 : Memref sig .tc .vmem S64x3072 .bf16) (harg4 : arg4.IsWhole) (arg5 : Memref sig .tc .vmem S512x3072 .bf16) (harg5 : arg5.IsWhole) (arg6 : Memref sig .tc .vmem S1024x3072 .bf16) (harg6 : arg6.IsWhole) (arg7 : Memref sig .tc .vmem S1x3072 .f32) (harg7 : arg7.IsWhole) (arg8 : Memref sig .tc .vmem S256x1024 .f32) (harg8 : arg8.IsWhole)
    (x0 : Vec F S256x1024 .f32) (x1 : Vec F S256x512 .f32) (x2 : Vec F S256x64 .f32) (x3 : Vec F S64x3072 .bf16) (x4 : Vec F S512x3072 .bf16) (x5 : Vec F S1024x3072 .bf16) (x6 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (outCover _)

/-! ## The region's proof data -/

/-- On core `c`: the arrays as the region finds them; after the body at block `t` each input buffer at its block and
    the output buffer at `outBlock` of the input blocks; nothing carried from block to block beyond what any body may
    use unseen; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outBlock (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d
theorem before6 (c : Dev nD) (t : Fin cfg0.N) (d) : (dats m 0 c).before 6 t d = iblk m c 6 t :=
  before_in6_of m (dats m 0 c) (A_eq m c 6) (after6 m c) t d

/-! ## The body obligation at a generic block -/

/-- What the body is called with at block `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any block: the input buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The obligation of the body, at every block. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault, every array of the region ending at its
    entry contents overwritten by what the blocks wrote back, and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run read at the result array and at the fifteen argument arrays: the result is what the blocks wrote
    back, and every argument ends as launched (the three staged ones are inputs of the region, the twelve others
    bypass it and no host line writes them). -/
theorem run_result : θ_run defs (onTc (τ := τ) (main (F := F))) ⟨m, fun _ => 0, ρ⟩ (fun r => ∀ c : Dev nD,
      r.2.mem ((c.tc : Thread nD τ).loc main_v8) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.Kernel.Region

end
-- ==== Proof.KernelIdealEntry.lean ====
/-
  The GRU cell's program up to and around its one pipelined region.

  Before the region the program lays the nine weight matrices side by side, three at a time, into the three wide
  matrices [64, 3072], [512, 3072], [1024, 3072] (each then narrowed to the 16-bit format), and the three bias
  vectors end to end into one row [1, 3072]. None of these eight host lines writes an argument array, so the
  region finds every argument as launched. The region walks the 4096 batch rows in 16 blocks of 256: at block t it is
  handed rows 256·t … 256·t + 255 of the carry, the spikes and the external input, and the whole of each wide
  matrix and of the bias row (these four are fetched once, at the first block, and stay in place since their block
  index never moves). Whichever of a window's staging buffers is current at a point, it holds that window's block
  there.
-/
import proofs.«141917_j37555194036855_2_alg».proof.Proof.Gen.KernelIdeal.Launch
import proofs.«141917_j37555194036855_2_alg».proof.Proof.Gen.KernelIdeal.Skeleton
import proofs.«141917_j37555194036855_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the eight host lines. -/
abbrev V (c : Dev nD) (b : Ref sig .tc) : Buf (Elt F) ((c : Thread nD τ).loc b) :=
  StableHlo.after hostOps0 (fun b => m (c, b)) b

/-- No host line allocates a buffer. -/
theorem hostOps0_fresh : (hostOps0 : List (HloOp τ sig (Elt F))).Forall fun op => op.fresh = ∅ := by
  simp only [List.Forall]; repeat' constructor

/-- The program is its host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host line before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (not fetched, its
    block index has not moved since the point before), for any proof data whose arrays are the region-entry contents
    and whose body leaves the input blocks in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Region

end
-- ==== Proof.KernelIdealBody.lean ====
/-
  The GRU cell's kernel at one block of 256 batch rows, and the run of the whole region.

  At a block the body reads its seven input blocks whole, computes the three wide products, the gates and the blend,
  and stores the 256 × 1024 result over the whole of the output block; it keeps nothing from block to block. So after
  the body the output's staging buffer holds one function of the seven input blocks (the one store, covering the
  buffer), and each input buffer holds its block as before. With that, the pipelined region runs to the end: every
  execution terminates, nothing faults, each argument array ends as launched, and the result array ends
  holding, block by block, what each point wrote back.
-/
import proofs.«141917_j37555194036855_2_alg».proof.Proof.KernelIdealEntry

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every block read or written whole -/

abbrev rIn0 : Rect S256x1024 := Rect.unit (s := S256x1024) ![0, 0] S256x1024.size inb_S256x1024_S256x1024_0_0
abbrev rIn1 : Rect S256x512 := Rect.unit (s := S256x512) ![0, 0] S256x512.size inb_S256x512_S256x512_0_0
abbrev rIn2 : Rect S256x64 := Rect.unit (s := S256x64) ![0, 0] S256x64.size inb_S256x64_S256x64_0_0
abbrev rIn3 : Rect S64x3072 := Rect.unit (s := S64x3072) ![0, 0] S64x3072.size inb_S64x3072_S64x3072_0_0
abbrev rIn4 : Rect S512x3072 := Rect.unit (s := S512x3072) ![0, 0] S512x3072.size inb_S512x3072_S512x3072_0_0
abbrev rIn5 : Rect S1024x3072 := Rect.unit (s := S1024x3072) ![0, 0] S1024x3072.size inb_S1024x3072_S1024x3072_0_0
abbrev rIn6 : Rect S1x3072 := Rect.unit (s := S1x3072) ![0, 0] S1x3072.size inb_S1x3072_S1x3072_0_0
abbrev rOut : Rect S256x1024 := Rect.unit (s := S256x1024) ![0, 0] S256x1024.size inb_S256x1024_S256x1024_0_0

/-! ## What the body leaves in the output block -/

/-- The output block after the body, from the seven input blocks: the update gate `z` (the payload the body keeps
    for the blend), the candidate times `1 - z`, and the blend `(1 - z) · n + z · h` stored over the whole block. -/
def outBlock (x0 : Vec F S256x1024 .f32) (x1 : Vec F S256x512 .f32) (x2 : Vec F S256x64 .f32) (x3 : Vec F S64x3072 .bf16) (x4 : Vec F S512x3072 .bf16) (x5 : Vec F S1024x3072 .bf16) (x6 : Vec F S1x3072 .f32) : Vec F S256x1024 .f32 :=
  View.canon [⟨rOut, k0_pay1 (View.ld x0 rIn0) (k0_pay5 (View.ld x0 rIn0) (View.ld x1 rIn1) (View.ld x2 rIn2) (View.ld x3 rIn3) (View.ld x4 rIn4) (View.ld x5 rIn5) (View.ld x6 rIn6)) (k0_pay6 (View.ld x0 rIn0) (View.ld x1 rIn1) (View.ld x2 rIn2) (View.ld x3 rIn3) (View.ld x4 rIn4) (View.ld x5 rIn5) (View.ld x6 rIn6))⟩]

/-- The one store covers the block. -/
theorem outCover (p0 : Vec F S256x1024 .f32) (y : S256x1024.Idx) :
    ∃ pc ∈ ([⟨rOut, p0⟩] : List (View.Piece (Elt F) S256x1024 .f32)), y ∈ pc.1.set :=
  View.cover_of_tiled [⟨rOut, p0⟩] S256x1024.size (by rfl) y

/-! ## The body's triple -/

set_option maxHeartbeats 1000000 in
/-- The body on whole staging buffers, the inputs' at contents `x0 … x6` and the output's at anything, runs to its end
    holding the inputs' as they were and the output's at `outBlock` of them. -/
theorem sound_kernel (c : Dev nD) (E : Set ℕ) (i : grid0.Coords) (arg1 : Memref sig .tc .vmem S256x1024 .f32) (harg1 : arg1.IsWhole) (arg2 : Memref sig .tc .vmem S256x512 .f32) (harg2 : arg2.IsWhole) (arg3 : Memref sig .tc .vmem S256x64 .f32) (harg3 : arg3.IsWhole) (arg4 : Memref sig .tc .vmem S64x3072 .bf16) (harg4 : arg4.IsWhole) (arg5 : Memref sig .tc .vmem S512x3072 .bf16) (harg5 : arg5.IsWhole) (arg6 : Memref sig .tc .vmem S1024x3072 .bf16) (harg6 : arg6.IsWhole) (arg7 : Memref sig .tc .vmem S1x3072 .f32) (harg7 : arg7.IsWhole) (arg8 : Memref sig .tc .vmem S256x1024 .f32) (harg8 : arg8.IsWhole)
    (x0 : Vec F S256x1024 .f32) (x1 : Vec F S256x512 .f32) (x2 : Vec F S256x64 .f32) (x3 : Vec F S64x3072 .bf16) (x4 : Vec F S512x3072 .bf16) (x5 : Vec F S1024x3072 .bf16) (x6 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (outCover _)

/-! ## The region's proof data -/

/-- On core `c`: the arrays as the region finds them; after the body at block `t` each input buffer at its block and
    the output buffer at `outBlock` of the input blocks; nothing carried from block to block beyond what any body may
    use unseen; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outBlock (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d
theorem before6 (c : Dev nD) (t : Fin cfg0.N) (d) : (dats m 0 c).before 6 t d = iblk m c 6 t :=
  before_in6_of m (dats m 0 c) (A_eq m c 6) (after6 m c) t d

/-! ## The body obligation at a generic block -/

/-- What the body is called with at block `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any block: the input buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The obligation of the body, at every block. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault, every array of the region ending at its
    entry contents overwritten by what the blocks wrote back, and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run read at the result array and at the fifteen argument arrays: the result is what the blocks wrote
    back, and every argument ends as launched (the three staged ones are inputs of the region, the twelve others
    bypass it and no host line writes them). -/
theorem run_result : θ_run defs (onTc (τ := τ) (main (F := F))) ⟨m, fun _ => 0, ρ⟩ (fun r => ∀ c : Dev nD,
      r.2.mem ((c.tc : Thread nD τ).loc main_v8) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.KernelIdeal.Region

end
-- ==== Proof.GruCell.lean ====
/-
  One step of a gated recurrent unit, entry by entry, on the extended reals.

  The step takes a batch of M rows: the carried state h (M × 1024), the two inputs x (M × 512) and c (M × 64); three
  wide weight matrices Wc (64 × 3072), Wx (512 × 3072), Wh (1024 × 3072), each three 1024-column matrices side by
  side (reset, update, candidate); and a bias row b (1 × 3072) added to the recurrent projection only. With
      gc = c · Wc,   gx = x · Wx,   gh = h · Wh + b,
  and columns q, 1024 + q, 2048 + q of a wide product feeding the reset gate, the update gate and the candidate,
      r = σ((gc + gx) + gh)        at column q,
      z = σ((gc + gx) + gh)        at column 1024 + q,
      n = tanh((gc + gx) + r · gh) at column 2048 + q,
  the new state at (p, q) is  (1 - z) · n + z · h[p, q].  Here σ(a) = 1 / (1 + e^(-a)) and every operation is the
  extended reals' own, so the formula is meaningful at every input; the sums and products are grouped exactly as
  written, and no law of arithmetic is used below beyond reading a formula at an index.

  Row p of the result reads h, x and c on row p only; that is what lets a batch be cut into blocks of rows.
-/
import Idealize.ShloMosaic.PureOps.Ideal
import Idealize.ShloMosaic.Lib.ValueIdx

noncomputable section

open scoped BigOperators

namespace Cert.Gru

open Idealize.ShloMosaic Idealize.ShloMosaic.ValueIdx

variable {M : ℕ}

/-- Entry (p, j) of a product of an M × K matrix with a K × 3072 matrix. -/
def proj {K : ℕ} (a : (⟨2, ![M, K]⟩ : Shape).Idx → EReal) (W : (⟨2, ![K, 3072]⟩ : Shape).Idx → EReal) (p : Fin M) (j : Fin 3072) : EReal :=
  ∑ k : Fin K, a (ix2 p k) * W (ix2 k j)

/-- The reset gate's column of a wide product. -/
def colR (q : Fin 1024) : Fin 3072 := ⟨q.val, by omega⟩
/-- The update gate's column. -/
def colZ (q : Fin 1024) : Fin 3072 := ⟨1024 + q.val, by omega⟩
/-- The candidate's column. -/
def colN (q : Fin 1024) : Fin 3072 := ⟨2048 + q.val, by omega⟩

/-- The recurrent projection with its bias, at (p, j). -/
def recur (h : (⟨2, ![M, 1024]⟩ : Shape).Idx → EReal) (Wh : (⟨2, ![1024, 3072]⟩ : Shape).Idx → EReal)
    (b : (⟨2, ![1, 3072]⟩ : Shape).Idx → EReal) (p : Fin M) (j : Fin 3072) : EReal :=
  proj h Wh p j + b (ix2 0 j)

/-- The new state at (p, q). -/
def cell (h : (⟨2, ![M, 1024]⟩ : Shape).Idx → EReal) (x : (⟨2, ![M, 512]⟩ : Shape).Idx → EReal) (c : (⟨2, ![M, 64]⟩ : Shape).Idx → EReal)
    (Wc : (⟨2, ![64, 3072]⟩ : Shape).Idx → EReal) (Wx : (⟨2, ![512, 3072]⟩ : Shape).Idx → EReal) (Wh : (⟨2, ![1024, 3072]⟩ : Shape).Idx → EReal)
    (b : (⟨2, ![1, 3072]⟩ : Shape).Idx → EReal) (p : Fin M) (q : Fin 1024) : EReal :=
  (1 - Ideal.logistic ((proj c Wc p (colZ q) + proj x Wx p (colZ q)) + recur h Wh b p (colZ q)))
      * Ideal.tanh ((proj c Wc p (colN q) + proj x Wx p (colN q))
          + Ideal.logistic ((proj c Wc p (colR q) + proj x Wx p (colR q)) + recur h Wh b p (colR q)) * recur h Wh b p (colN q))
    + Ideal.logistic ((proj c Wc p (colZ q) + proj x Wx p (colZ q)) + recur h Wh b p (colZ q)) * h (ix2 p q)

/-- A product's row p reads the left matrix on row p only. -/
theorem proj_row {M' K : ℕ} (a : (⟨2, ![M, K]⟩ : Shape).Idx → EReal) (a' : (⟨2, ![M', K]⟩ : Shape).Idx → EReal)
    (W : (⟨2, ![K, 3072]⟩ : Shape).Idx → EReal) (p : Fin M) (p' : Fin M') (hrow : ∀ k : Fin K, a (ix2 p k) = a' (ix2 p' k)) (j : Fin 3072) :
    proj a W p j = proj a' W p' j :=
  Finset.sum_congr rfl fun k _ => by rw [hrow k]

/-- The new state's row p reads the three activations on row p only: a block of rows of the batch gives that block
    of rows of the result. -/
theorem cell_row {M' : ℕ} (h : (⟨2, ![M, 1024]⟩ : Shape).Idx → EReal) (x : (⟨2, ![M, 512]⟩ : Shape).Idx → EReal) (c : (⟨2, ![M, 64]⟩ : Shape).Idx → EReal)
    (h' : (⟨2, ![M', 1024]⟩ : Shape).Idx → EReal) (x' : (⟨2, ![M', 512]⟩ : Shape).Idx → EReal) (c' : (⟨2, ![M', 64]⟩ : Shape).Idx → EReal)
    (Wc : (⟨2, ![64, 3072]⟩ : Shape).Idx → EReal) (Wx : (⟨2, ![512, 3072]⟩ : Shape).Idx → EReal) (Wh : (⟨2, ![1024, 3072]⟩ : Shape).Idx → EReal)
    (b : (⟨2, ![1, 3072]⟩ : Shape).Idx → EReal) (p : Fin M) (p' : Fin M')
    (hh : ∀ k : Fin 1024, h (ix2 p k) = h' (ix2 p' k)) (hx : ∀ k : Fin 512, x (ix2 p k) = x' (ix2 p' k))
    (hc : ∀ k : Fin 64, c (ix2 p k) = c' (ix2 p' k)) (q : Fin 1024) :
    cell h x c Wc Wx Wh b p q = cell h' x' c' Wc Wx Wh b p' q := by
  unfold cell recur
  rw [proj_row c c' Wc p p' hc, proj_row c c' Wc p p' hc, proj_row c c' Wc p p' hc,
    proj_row x x' Wx p p' hx, proj_row x x' Wx p p' hx, proj_row x x' Wx p p' hx,
    proj_row h h' Wh p p' hh, proj_row h h' Wh p p' hh, proj_row h h' Wh p p' hh, hh q]

end Cert.Gru

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.KernelBlockValue.lean ====
/-
  The kernel's output block, entry by entry.

  At a block of 256 rows the body forms the three wide products of the block's rows of c, x and h with the whole
  wide matrices (each product started from zero, so it is the plain sum over the contracted coordinate; narrowing a
  number to the 16-bit format is the identity on the extended reals), adds the bias row (repeated down the 256 rows) to
  the recurrent product, takes columns q, 1024 + q and 2048 + q for the two gates and the candidate, and blends. Read at
  (a, q) that is the gated-unit step of the block's rows, at row a and column q.
-/
import proofs.«141917_j37555194036855_2_alg».proof.Proof.KernelIdealBody
import proofs.«141917_j37555194036855_2_alg».proof.Proof.GruCell
import proofs.«141917_j37555194036855_2_alg».proof.Proof.LibPlainDot
import Idealize.ShloMosaic.Lib.Pipeline.Value
import Idealize.ShloMosaic.Lib.ValueIdx
import Idealize.ShloMosaic.Lib.IdealHost

noncomputable section

open scoped BigOperators

namespace Cert.KernelIdeal.BlockValue

open Idealize.ShloMosaic Idealize.ShloMosaic.ValueIdx
open Cert.KernelIdeal Cert.KernelIdeal.Gen Cert.Gru

/-- The offsets of a whole-block access are zero on both axes. -/
theorem hz : (![0, 0] : Fin 2 → Nat) = fun _ => 0 := funext fun a => by fin_cases a <;> rfl

/-! ## Columns of a wide 256 × 3072 array -/

theorem sliceR (y : S256x3072.Idx → EReal) (h : S256x3072.Slices ![0, 0] S256x1024) (a : Fin 256) (q : Fin 1024) :
    extractStridedSlice S256x1024 ![0, 0] y h (ix2 a q) = y (ix2 a (colR q)) :=
  extractStridedSlice_apply ![0, 0] y h (ix2 a q) (ix2 a (colR q)) (fun b => match b with
    | ⟨0, _⟩ => by show a.val = 0 + a.val; omega
    | ⟨1, _⟩ => by show q.val = 0 + q.val; omega)

theorem sliceZ (y : S256x3072.Idx → EReal) (h : S256x3072.Slices ![0, 1024] S256x1024) (a : Fin 256) (q : Fin 1024) :
    extractStridedSlice S256x1024 ![0, 1024] y h (ix2 a q) = y (ix2 a (colZ q)) :=
  extractStridedSlice_apply ![0, 1024] y h (ix2 a q) (ix2 a (colZ q)) (fun b => match b with
    | ⟨0, _⟩ => by show a.val = 0 + a.val; omega
    | ⟨1, _⟩ => by show 1024 + q.val = 1024 + q.val; rfl)

theorem sliceN (y : S256x3072.Idx → EReal) (h : S256x3072.Slices ![0, 2048] S256x1024) (a : Fin 256) (q : Fin 1024) :
    extractStridedSlice S256x1024 ![0, 2048] y h (ix2 a q) = y (ix2 a (colN q)) :=
  extractStridedSlice_apply ![0, 2048] y h (ix2 a q) (ix2 a (colN q)) (fun b => match b with
    | ⟨0, _⟩ => by show a.val = 0 + a.val; omega
    | ⟨1, _⟩ => by show 2048 + q.val = 2048 + q.val; rfl)

/-! ## The three wide products -/

theorem plain_c : Cert.PlainDot.IsPlain dot_S256x64_S64x3072_S256x3072_1_0_0_1_n_n := ⟨rfl, rfl, rfl, rfl, rfl, rfl⟩
theorem plain_x : Cert.PlainDot.IsPlain dot_S256x512_S512x3072_S256x3072_1_0_0_1_n_n := ⟨rfl, rfl, rfl, rfl, rfl, rfl⟩
theorem plain_h : Cert.PlainDot.IsPlain dot_S256x1024_S1024x3072_S256x3072_1_0_0_1_n_n := ⟨rfl, rfl, rfl, rfl, rfl, rfl⟩

/-- The product of the block's rows of c with the wide c-matrix. -/
theorem pay2_apply (x2 : Vec Ideal S256x64 .f32) (x3 : Vec Ideal S64x3072 .bf16) (a : Fin 256) (j : Fin 3072) :
    k0_pay2 (F := Ideal) x2 x3 (ix2 a j) = proj x2 x3 a j := by
  unfold k0_pay2
  refine (Cert.PlainDot.matmul_zero_apply plain_c none _ _ a j).trans ?_
  rw [shapeCast_self]
  rfl

/-- The product of the block's rows of x with the wide x-matrix. -/
theorem pay3_apply (x1 : Vec Ideal S256x512 .f32) (x4 : Vec Ideal S512x3072 .bf16) (a : Fin 256) (j : Fin 3072) :
    k0_pay3 (F := Ideal) x1 x4 (ix2 a j) = proj x1 x4 a j := by
  unfold k0_pay3
  refine (Cert.PlainDot.matmul_zero_apply plain_x none _ _ a j).trans ?_
  rw [shapeCast_self]
  rfl

/-- The product of the block's rows of h with the wide h-matrix, plus the bias row. -/
theorem pay4_apply (x0 : Vec Ideal S256x1024 .f32) (x5 : Vec Ideal S1024x3072 .bf16) (x6 : Vec Ideal S1x3072 .f32) (a : Fin 256) (j : Fin 3072) :
    k0_pay4 (F := Ideal) x0 x5 x6 (ix2 a j) = recur x0 x5 x6 a j := by
  unfold k0_pay4 recur
  show matmul dot_S256x1024_S1024x3072_S256x3072_1_0_0_1_n_n none _ _ _ (ix2 a j) + broadcastTo S256x3072 _ _ (ix2 a j) = _
  rw [Cert.PlainDot.matmul_zero_apply plain_h none _ _ a j, shapeCast_self, shapeCast_self,
    broadcastTo_apply x6 broadcasts_S1x3072_S256x3072 (ix2 a j) (ix2 (0 : Fin 1) j) (fun b => match b with
      | ⟨0, _⟩ => by show (0 : ℕ) = if (1 : ℕ) = 1 then 0 else _; rw [if_pos rfl]
      | ⟨1, _⟩ => by show j.val = if (3072 : ℕ) = 1 then 0 else j.val; rw [if_neg (by decide)])]
  rfl

/-! ## The block -/

/-- The output block at (a, q) is the gated-unit step of the seven input blocks at row a, column q. -/
theorem outBlock_apply (x0 : Vec Ideal S256x1024 .f32) (x1 : Vec Ideal S256x512 .f32) (x2 : Vec Ideal S256x64 .f32)
    (x3 : Vec Ideal S64x3072 .bf16) (x4 : Vec Ideal S512x3072 .bf16) (x5 : Vec Ideal S1024x3072 .bf16) (x6 : Vec Ideal S1x3072 .f32)
    (a : Fin 256) (q : Fin 1024) :
    Cert.KernelIdeal.Region.outBlock (F := Ideal) x0 x1 x2 x3 x4 x5 x6 (ix2 a q) = cell x0 x1 x2 x3 x4 x5 x6 a q := by
  unfold Cert.KernelIdeal.Region.outBlock
  rw [View.canon_unit_zero hz]
  simp only [View.ld_unit_zero (S := S256x1024) hz, View.ld_unit_zero (S := S256x512) hz, View.ld_unit_zero (S := S256x64) hz,
    View.ld_unit_zero (S := S64x3072) hz, View.ld_unit_zero (S := S512x3072) hz, View.ld_unit_zero (S := S1024x3072) hz,
    View.ld_unit_zero (S := S1x3072) hz]
  unfold k0_pay1 k0_pay6 k0_pay5 cell
  have hs : Scalar.ofBits (F := Ideal) .f32 0x3F800000#32 = (1 : EReal) := Ideal.ofBits_one_f32
  simp only [addf, mulf, subf, logistic, tanh, broadcast, sliceR, sliceZ, sliceN, pay2_apply, pay3_apply, pay4_apply,
    Ideal.addf_def, Ideal.mulf_def, Ideal.subf_def, Ideal.logistic_def, Ideal.tanh_def, hs]

end Cert.KernelIdeal.BlockValue

end
-- ==== Proof.KernelArray.lean ====
/-
  From the blocks the kernel writes back to the whole result array.

  The grid has 16 points; at point t the three row-blocked inputs and the output sit at block row t (rows 256·t to
  256·t + 255, all columns) and the four resident inputs at their one block, the whole array. What point t writes
  back is therefore block t of ONE function of the arrays as the region finds them: the gated-unit step of the whole
  batch, since a row of the step reads the batch on that row only. The 16 output blocks tile the 4096 rows (row r lies in
  block r / 256), so after the run the result array is that function everywhere.
-/
import proofs.«141917_j37555194036855_2_alg».proof.Proof.KernelIdealBody
import proofs.«141917_j37555194036855_2_alg».proof.Proof.KernelBlockValue
import proofs.«141917_j37555194036855_2_alg».proof.Proof.GruCell
import Idealize.ShloMosaic.Lib.Pipeline.Value
import Idealize.ShloMosaic.Lib.ValueIdx

set_option maxRecDepth 16384

noncomputable section

namespace Cert.KernelIdeal.ArrayValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Region Cert.Gru

variable (m : (ℓ : Loc nD τ sig) → Buf (Elt Ideal) ℓ) (ρ : Dev nD → PrngReg)

/-- The gated-unit step of the whole batch, of the arrays as the region finds them. -/
def G (c : Dev nD) : S4096x1024.Idx → EReal := fun i =>
  cell (M := 4096) (V m c main_arg0) (V m c main_arg1) (V m c main_arg2) (V m c main_v1) (V m c main_v3) (V m c main_v5) (V m c main_v7)
    ⟨(i 0).val, (i 0).isLt⟩ ⟨(i 1).val, (i 1).isLt⟩

/-- A grid point is one of 16. -/
theorem point_lt (t : Fin cfg0.N) : t.val < 16 := lt_of_lt_of_eq t.isLt N_0

/-- Row `a` of block `t` is row 256·t + a of the batch. -/
def rowOf (t : Fin cfg0.N) (a : Fin 256) : Fin 4096 := ⟨256 * t.val + a.val, by have := point_lt t; omega⟩

/-- The printed index maps, decided over the grid: the row-blocked windows sit at block row `t`, the resident ones at
    their only block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Block `t` of window 0 is rows 256·t … 256·t + 255 of its array. -/
theorem rows0 (c : Dev nD) (t : Fin cfg0.N) (a : Fin 256) (k : Fin 1024) :
    iblk m c 0 t (ix2 a k) = V m c main_arg0 (ix2 (rowOf t a) k) := by
  obtain ⟨e00, e01, e10, e11, e20, e21, e30, e31, e40, e41, e50, e51, e60, e61, e70, e71⟩ := idx_facts t
  show V m c main_arg0 (((cfg0.win 0).blk t).view.emb (ix2 a k)) = _
  refine congrArg _ (funext fun b => Fin.ext ?_)
  match b with
  | ⟨0, _⟩ => show win0_0.index t (0 : Fin 2) * 256 + 1 * a.val = 256 * t.val + a.val; rw [e00]; omega
  | ⟨1, _⟩ => show win0_0.index t (1 : Fin 2) * 1024 + 1 * k.val = k.val; rw [e01]; omega

/-- Block `t` of window 1 is rows 256·t … 256·t + 255 of its array. -/
theorem rows1 (c : Dev nD) (t : Fin cfg0.N) (a : Fin 256) (k : Fin 512) :
    iblk m c 1 t (ix2 a k) = V m c main_arg1 (ix2 (rowOf t a) k) := by
  obtain ⟨e00, e01, e10, e11, e20, e21, e30, e31, e40, e41, e50, e51, e60, e61, e70, e71⟩ := idx_facts t
  show V m c main_arg1 (((cfg0.win 1).blk t).view.emb (ix2 a k)) = _
  refine congrArg _ (funext fun b => Fin.ext ?_)
  match b with
  | ⟨0, _⟩ => show win0_1.index t (0 : Fin 2) * 256 + 1 * a.val = 256 * t.val + a.val; rw [e10]; omega
  | ⟨1, _⟩ => show win0_1.index t (1 : Fin 2) * 512 + 1 * k.val = k.val; rw [e11]; omega

/-- Block `t` of window 2 is rows 256·t … 256·t + 255 of its array. -/
theorem rows2 (c : Dev nD) (t : Fin cfg0.N) (a : Fin 256) (k : Fin 64) :
    iblk m c 2 t (ix2 a k) = V m c main_arg2 (ix2 (rowOf t a) k) := by
  obtain ⟨e00, e01, e10, e11, e20, e21, e30, e31, e40, e41, e50, e51, e60, e61, e70, e71⟩ := idx_facts t
  show V m c main_arg2 (((cfg0.win 2).blk t).view.emb (ix2 a k)) = _
  refine congrArg _ (funext fun b => Fin.ext ?_)
  match b with
  | ⟨0, _⟩ => show win0_2.index t (0 : Fin 2) * 256 + 1 * a.val = 256 * t.val + a.val; rw [e20]; omega
  | ⟨1, _⟩ => show win0_2.index t (1 : Fin 2) * 64 + 1 * k.val = k.val; rw [e21]; omega

/-- Window 3's one block is the whole of its array, at every point. -/
theorem whole3 (c : Dev nD) (t : Fin cfg0.N) : iblk m c 3 t = V m c main_v1 := by
  obtain ⟨e00, e01, e10, e11, e20, e21, e30, e31, e40, e41, e50, e51, e60, e61, e70, e71⟩ := idx_facts t
  refine funext fun (y : S64x3072.Idx) => ?_
  show V m c main_v1 (((cfg0.win 3).blk t).view.emb y) = V m c main_v1 y
  refine congrArg _ (funext fun b => Fin.ext ?_)
  match b with
  | ⟨0, _⟩ => show win0_3.index t (0 : Fin 2) * 64 + 1 * (y 0).val = (y 0).val; rw [e30]; omega
  | ⟨1, _⟩ => show win0_3.index t (1 : Fin 2) * 3072 + 1 * (y 1).val = (y 1).val; rw [e31]; omega

/-- Window 4's one block is the whole of its array, at every point. -/
theorem whole4 (c : Dev nD) (t : Fin cfg0.N) : iblk m c 4 t = V m c main_v3 := by
  obtain ⟨e00, e01, e10, e11, e20, e21, e30, e31, e40, e41, e50, e51, e60, e61, e70, e71⟩ := idx_facts t
  refine funext fun (y : S512x3072.Idx) => ?_
  show V m c main_v3 (((cfg0.win 4).blk t).view.emb y) = V m c main_v3 y
  refine congrArg _ (funext fun b => Fin.ext ?_)
  match b with
  | ⟨0, _⟩ => show win0_4.index t (0 : Fin 2) * 512 + 1 * (y 0).val = (y 0).val; rw [e40]; omega
  | ⟨1, _⟩ => show win0_4.index t (1 : Fin 2) * 3072 + 1 * (y 1).val = (y 1).val; rw [e41]; omega

/-- Window 5's one block is the whole of its array, at every point. -/
theorem whole5 (c : Dev nD) (t : Fin cfg0.N) : iblk m c 5 t = V m c main_v5 := by
  obtain ⟨e00, e01, e10, e11, e20, e21, e30, e31, e40, e41, e50, e51, e60, e61, e70, e71⟩ := idx_facts t
  refine funext fun (y : S1024x3072.Idx) => ?_
  show V m c main_v5 (((cfg0.win 5).blk t).view.emb y) = V m c main_v5 y
  refine congrArg _ (funext fun b => Fin.ext ?_)
  match b with
  | ⟨0, _⟩ => show win0_5.index t (0 : Fin 2) * 1024 + 1 * (y 0).val = (y 0).val; rw [e50]; omega
  | ⟨1, _⟩ => show win0_5.index t (1 : Fin 2) * 3072 + 1 * (y 1).val = (y 1).val; rw [e51]; omega

/-- Window 6's one block is the whole of its array, at every point. -/
theorem whole6 (c : Dev nD) (t : Fin cfg0.N) : iblk m c 6 t = V m c main_v7 := by
  obtain ⟨e00, e01, e10, e11, e20, e21, e30, e31, e40, e41, e50, e51, e60, e61, e70, e71⟩ := idx_facts t
  refine funext fun (y : S1x3072.Idx) => ?_
  show V m c main_v7 (((cfg0.win 6).blk t).view.emb y) = V m c main_v7 y
  refine congrArg _ (funext fun b => Fin.ext ?_)
  match b with
  | ⟨0, _⟩ => show win0_6.index t (0 : Fin 2) * 1 + 1 * (y 0).val = (y 0).val; rw [e60]; omega
  | ⟨1, _⟩ => show win0_6.index t (1 : Fin 2) * 3072 + 1 * (y 1).val = (y 1).val; rw [e61]; omega

/-- What point `t` writes back is block `t` of the whole-batch step. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after7, whole3 m c t, whole4 m c t, whole5 m c t, whole6 m c t]
  obtain ⟨e00, e01, e10, e11, e20, e21, e30, e31, e40, e41, e50, e51, e60, e61, e70, e71⟩ := idx_facts t
  refine funext fun (j : S256x1024.Idx) => ?_
  obtain ⟨a, q, rfl⟩ : ∃ (a : Fin 256) (q : Fin 1024), j = ix2 a q := ⟨j 0, j 1, eq_ix2 j⟩
  show outBlock (iblk m c 0 t) (iblk m c 1 t) (iblk m c 2 t) (V m c main_v1) (V m c main_v3) (V m c main_v5) (V m c main_v7) (ix2 a q)
      = G m c (((cfg0.win 7).blk t).view.emb (ix2 a q))
  have hemb : ((cfg0.win 7).blk t).view.emb (ix2 a q) = ix2 (rowOf t a) q := funext fun b => Fin.ext (by
    match b with
    | ⟨0, _⟩ => show win0_7.index t (0 : Fin 2) * 256 + 1 * a.val = 256 * t.val + a.val; rw [e70]; omega
    | ⟨1, _⟩ => show win0_7.index t (1 : Fin 2) * 1024 + 1 * q.val = q.val; rw [e71]; omega)
  rw [hemb]
  refine (Cert.KernelIdeal.BlockValue.outBlock_apply (iblk m c 0 t) (iblk m c 1 t) (iblk m c 2 t) (V m c main_v1) (V m c main_v3) (V m c main_v5) (V m c main_v7) a q).trans ?_
  exact cell_row (M := 256) (M' := 4096) (iblk m c 0 t) (iblk m c 1 t) (iblk m c 2 t) (V m c main_arg0) (V m c main_arg1) (V m c main_arg2)
    (V m c main_v1) (V m c main_v3) (V m c main_v5) (V m c main_v7) a (rowOf t a)
    (fun k => rows0 m c t a k) (fun k => rows1 m c t a k) (fun k => rows2 m c t a k) q

/-- An index of the result array is in point `t`'s block iff each coordinate is in the block's range on its axis. -/
theorem mem_blk (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v8).slice (win0_7.rect t)).set ↔ _
  rw [View.set_slice_whole, Rect.mem_set_unit]
  exact Iff.rfl

/-- Every index of the result array is in the block of the point its row falls in. -/
theorem cover (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  obtain ⟨t, ht⟩ : ∃ t : Fin cfg0.N, t.val = (i 0).val / 256 :=
    ⟨⟨(i 0).val / 256, lt_of_lt_of_eq (show (i 0).val / 256 < 16 by omega) N_0.symm⟩, rfl⟩
  obtain ⟨e00, e01, e10, e11, e20, e21, e30, e31, e40, e41, e50, e51, e60, e61, e70, e71⟩ := idx_facts t
  refine ⟨t, flush0_7 t, ?_⟩
  rw [mem_blk]
  intro a
  match a with
  | ⟨0, _⟩ => show win0_7.index t (0 : Fin 2) * 256 ≤ (i 0).val ∧ (i 0).val < win0_7.index t (0 : Fin 2) * 256 + 256; rw [e70, ht]; omega
  | ⟨1, _⟩ => show win0_7.index t (1 : Fin 2) * 1024 ≤ (i 1).val ∧ (i 1).val < win0_7.index t (1 : Fin 2) * 1024 + 1024; rw [e71]; omega

/-- The result array after the run is the whole-batch step. -/
theorem final (c : Dev nD) : (dats m 0 c).arrAt 7 cfg0.N = G m c :=
  (dats m 0 c).arrAt_eq_of_cover 7 (G m c) (fun t _ => flushed_eq m c t) cover

end Cert.KernelIdeal.ArrayValue

end
-- ==== Proof.GruWhole.lean ====
/-
  The gated-unit step of the whole batch, from the fifteen argument arrays.

  The nine weight matrices arrive separately (for each of c, x and h: a reset, an update and a candidate matrix, each with
  1024 columns) and the three bias vectors likewise. Laid side by side, three at a time, the matrices are the three wide
  matrices of the step; laid end to end and read as one row, the bias vectors are its bias row. Nothing here opens a
  concatenation: both programs form the very same ones, so they are carried as they are.
-/
import proofs.«141917_j37555194036855_2_alg».proof.Proof.GruCell
import Idealize.ShloMosaic.Lib.Pipeline.Value

noncomputable section

namespace Cert.Gru

open Idealize.ShloMosaic Idealize.ShloMosaic.ValueIdx

/-- Three 64 × 1024 matrices side by side. -/
def wideC (x3 x5 x7 : (⟨2, ![64, 1024]⟩ : Shape).Idx → EReal) : (⟨2, ![64, 3072]⟩ : Shape).Idx → EReal :=
  concatenate ⟨2, ![64, 3072]⟩ 1 [⟨⟨2, ![64, 1024]⟩, x3⟩, ⟨⟨2, ![64, 1024]⟩, x5⟩, ⟨⟨2, ![64, 1024]⟩, x7⟩] (show Shape.Concatenates [(⟨2, ![64, 1024]⟩ : Shape), (⟨2, ![64, 1024]⟩ : Shape), (⟨2, ![64, 1024]⟩ : Shape)] (⟨2, ![64, 3072]⟩ : Shape) 1 by decide)

/-- Three 512 × 1024 matrices side by side. -/
def wideX (x4 x6 x8 : (⟨2, ![512, 1024]⟩ : Shape).Idx → EReal) : (⟨2, ![512, 3072]⟩ : Shape).Idx → EReal :=
  concatenate ⟨2, ![512, 3072]⟩ 1 [⟨⟨2, ![512, 1024]⟩, x4⟩, ⟨⟨2, ![512, 1024]⟩, x6⟩, ⟨⟨2, ![512, 1024]⟩, x8⟩] (show Shape.Concatenates [(⟨2, ![512, 1024]⟩ : Shape), (⟨2, ![512, 1024]⟩ : Shape), (⟨2, ![512, 1024]⟩ : Shape)] (⟨2, ![512, 3072]⟩ : Shape) 1 by decide)

/-- Three 1024 × 1024 matrices side by side. -/
def wideH (x9 x11 x13 : (⟨2, ![1024, 1024]⟩ : Shape).Idx → EReal) : (⟨2, ![1024, 3072]⟩ : Shape).Idx → EReal :=
  concatenate ⟨2, ![1024, 3072]⟩ 1 [⟨⟨2, ![1024, 1024]⟩, x9⟩, ⟨⟨2, ![1024, 1024]⟩, x11⟩, ⟨⟨2, ![1024, 1024]⟩, x13⟩] (show Shape.Concatenates [(⟨2, ![1024, 1024]⟩ : Shape), (⟨2, ![1024, 1024]⟩ : Shape), (⟨2, ![1024, 1024]⟩ : Shape)] (⟨2, ![1024, 3072]⟩ : Shape) 1 by decide)

/-- Three bias vectors end to end. -/
def biasVec (x10 x12 x14 : (⟨1, ![1024]⟩ : Shape).Idx → EReal) : (⟨1, ![3072]⟩ : Shape).Idx → EReal :=
  concatenate ⟨1, ![3072]⟩ 0 [⟨⟨1, ![1024]⟩, x10⟩, ⟨⟨1, ![1024]⟩, x12⟩, ⟨⟨1, ![1024]⟩, x14⟩] (show Shape.Concatenates [(⟨1, ![1024]⟩ : Shape), (⟨1, ![1024]⟩ : Shape), (⟨1, ![1024]⟩ : Shape)] (⟨1, ![3072]⟩ : Shape) 0 by decide)

/-- The same, read as one row. -/
def biasRow (x10 x12 x14 : (⟨1, ![1024]⟩ : Shape).Idx → EReal) : (⟨2, ![1, 3072]⟩ : Shape).Idx → EReal :=
  shapeCast ⟨2, ![1, 3072]⟩ (biasVec x10 x12 x14) (show (⟨1, ![3072]⟩ : Shape).ShapeCasts ⟨2, ![1, 3072]⟩ by decide)

/-- The new state of the whole batch. -/
def step (x0 : (⟨2, ![4096, 1024]⟩ : Shape).Idx → EReal) (x1 : (⟨2, ![4096, 512]⟩ : Shape).Idx → EReal) (x2 : (⟨2, ![4096, 64]⟩ : Shape).Idx → EReal)
    (x3 : (⟨2, ![64, 1024]⟩ : Shape).Idx → EReal) (x4 : (⟨2, ![512, 1024]⟩ : Shape).Idx → EReal) (x5 : (⟨2, ![64, 1024]⟩ : Shape).Idx → EReal) (x6 : (⟨2, ![512, 1024]⟩ : Shape).Idx → EReal)
    (x7 : (⟨2, ![64, 1024]⟩ : Shape).Idx → EReal) (x8 : (⟨2, ![512, 1024]⟩ : Shape).Idx → EReal) (x9 : (⟨2, ![1024, 1024]⟩ : Shape).Idx → EReal) (x10 : (⟨1, ![1024]⟩ : Shape).Idx → EReal)
    (x11 : (⟨2, ![1024, 1024]⟩ : Shape).Idx → EReal) (x12 : (⟨1, ![1024]⟩ : Shape).Idx → EReal) (x13 : (⟨2, ![1024, 1024]⟩ : Shape).Idx → EReal) (x14 : (⟨1, ![1024]⟩ : Shape).Idx → EReal) :
    (⟨2, ![4096, 1024]⟩ : Shape).Idx → EReal := fun i =>
  cell (M := 4096) x0 x1 x2 (wideC x3 x5 x7) (wideX x4 x6 x8) (wideH x9 x11 x13) (biasRow x10 x12 x14)
    ⟨(i 0).val, (i 0).isLt⟩ ⟨(i 1).val, (i 1).isLt⟩

end Cert.Gru

end
-- ==== Proof.KernelFinal.lean ====
/-
  The kernel program's result as one function of its fifteen arguments.

  When the region is entered the four arrays the host lines made hold the three wide matrices (each narrowed to the
  16-bit format, which is the identity on the extended reals) and the bias row, of the argument arrays as launched; the
  three row-blocked arrays are arguments themselves. So the result array, the whole-batch step of the arrays the
  region finds, is the whole-batch step of the arguments.
-/
import proofs.«141917_j37555194036855_2_alg».proof.Proof.KernelArray
import proofs.«141917_j37555194036855_2_alg».proof.Proof.GruWhole
import Idealize.ShloMosaic.Lib.StableHlo.Run

set_option maxRecDepth 16384

noncomputable section

namespace Cert.KernelIdeal.Final

open Idealize.ShloMosaic Idealize.ShloMosaic.TcCoe Idealize.ShloMosaic.ValueIdx Idealize.SL.Sem Idealize.ShloMosaic.StableHlo
open Cert.KernelIdeal Cert.KernelIdeal.Gen Cert.KernelIdeal.Region Cert.KernelIdeal.ArrayValue Cert.Gru

variable (m : (ℓ : Loc nD τ sig) → Buf (Elt Ideal) ℓ) (ρ : Dev nD → PrngReg)

/-- The wide c-matrix the region finds. -/
theorem entry_wideC (c : Dev nD) : (V m c main_v1 : S64x3072.Idx → EReal) = wideC (m ((c.tc : Thread nD τ).loc main_arg3)) (m ((c.tc : Thread nD τ).loc main_arg5)) (m ((c.tc : Thread nD τ).loc main_arg7)) := by
  dsimp only [V, hostOps0]; after_results_simp; rfl

/-- The wide x-matrix the region finds. -/
theorem entry_wideX (c : Dev nD) : (V m c main_v3 : S512x3072.Idx → EReal) = wideX (m ((c.tc : Thread nD τ).loc main_arg4)) (m ((c.tc : Thread nD τ).loc main_arg6)) (m ((c.tc : Thread nD τ).loc main_arg8)) := by
  dsimp only [V, hostOps0]; after_results_simp; rfl

/-- The wide h-matrix the region finds. -/
theorem entry_wideH (c : Dev nD) : (V m c main_v5 : S1024x3072.Idx → EReal) = wideH (m ((c.tc : Thread nD τ).loc main_arg9)) (m ((c.tc : Thread nD τ).loc main_arg11)) (m ((c.tc : Thread nD τ).loc main_arg13)) := by
  dsimp only [V, hostOps0]; after_results_simp; rfl

/-- The bias row the region finds. -/
theorem entry_biasRow (c : Dev nD) : (V m c main_v7 : S1x3072.Idx → EReal) = biasRow (m ((c.tc : Thread nD τ).loc main_arg10)) (m ((c.tc : Thread nD τ).loc main_arg12)) (m ((c.tc : Thread nD τ).loc main_arg14)) := by
  dsimp only [V, hostOps0]; after_results_simp; rfl

/-- The result array is the whole-batch step of the arguments. -/
theorem G_args (c : Dev nD) : G m c = step (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold G step
  rw [V_main_arg0 m c, V_main_arg1 m c, V_main_arg2 m c, entry_wideC m c, entry_wideX m c, entry_wideH m c, entry_biasRow m c]

/-- Every execution of the kernel program terminates without a fault, the result array (returned twice) ending at the
    whole-batch step of the arguments and every argument as launched. -/
theorem run : θ_run defs (onTc (τ := τ) (main (F := Ideal))) ⟨m, fun _ => 0, ρ⟩ (fun r => ∀ c : Dev nD,
      r.2.mem ((c.tc : Thread nD τ).loc main_v8) = step (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v8) = step (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans ((final m c).trans (G_args m c)), (h c).1.trans ((final m c).trans (G_args m c)), (h c).2⟩)
    (run_result m ρ)

end Cert.KernelIdeal.Final

end
-- ==== Proof.ReferenceValue.lean ====
/-
  The reference, entry by entry.

  The reference lays the weights side by side and the biases end to end exactly as the kernel's program does, takes
  the three wide products over the whole batch, adds the bias row to the recurrent one, cuts each wide product into
  its three 1024-column parts, and forms the gates with the logistic function spelt out as 1 / (1 + e^(-a)). Read at
  (p, q), stage by stage, that is the gated-unit step of the whole batch at row p, column q: a column slice reads
  column q, 1024 + q or 2048 + q of its wide product, a product reads as the sum over the contracted coordinate, the
  repeated bias row reads its entry, and the spelt-out logistic is the logistic function of the extended reals (the
  float word 0x3F800000 denotes 1).
-/
import proofs.«141917_j37555194036855_2_alg».proof.Proof.Gen.ReferenceIdeal.Read
import proofs.«141917_j37555194036855_2_alg».proof.Proof.GruCell
import Idealize.ShloMosaic.Lib.ValueIdx
import Idealize.ShloMosaic.Lib.IdealHost

noncomputable section

open scoped BigOperators

namespace Cert.ReferenceIdeal.RefValue

open Idealize.ShloMosaic Idealize.ShloMosaic.ValueIdx
open Cert.ReferenceIdeal Cert.ReferenceIdeal.Gen Cert.ReferenceIdeal.Read Cert.Gru

/-! ## The stages' index maps at (p, q) -/

theorem idx_v10 (p : Fin 4096) (q : Fin 1024) : idx_main_v10 (ix2 p q) = ix2 p (colR q) :=
  funext fun a => Fin.ext (by match a with | ⟨0, _⟩ => rfl | ⟨1, _⟩ => rfl)
theorem idx_v11 (p : Fin 4096) (q : Fin 1024) : idx_main_v11 (ix2 p q) = ix2 p (colZ q) :=
  funext fun a => Fin.ext (by match a with | ⟨0, _⟩ => rfl | ⟨1, _⟩ => rfl)
theorem idx_v12 (p : Fin 4096) (q : Fin 1024) : idx_main_v12 (ix2 p q) = ix2 p (colN q) :=
  funext fun a => Fin.ext (by match a with | ⟨0, _⟩ => rfl | ⟨1, _⟩ => rfl)
theorem idx_v13 (p : Fin 4096) (q : Fin 1024) : idx_main_v13 (ix2 p q) = ix2 p (colR q) :=
  funext fun a => Fin.ext (by match a with | ⟨0, _⟩ => rfl | ⟨1, _⟩ => rfl)
theorem idx_v14 (p : Fin 4096) (q : Fin 1024) : idx_main_v14 (ix2 p q) = ix2 p (colZ q) :=
  funext fun a => Fin.ext (by match a with | ⟨0, _⟩ => rfl | ⟨1, _⟩ => rfl)
theorem idx_v15 (p : Fin 4096) (q : Fin 1024) : idx_main_v15 (ix2 p q) = ix2 p (colN q) :=
  funext fun a => Fin.ext (by match a with | ⟨0, _⟩ => rfl | ⟨1, _⟩ => rfl)
theorem idx_v16 (p : Fin 4096) (q : Fin 1024) : idx_main_v16 (ix2 p q) = ix2 p (colR q) :=
  funext fun a => Fin.ext (by match a with | ⟨0, _⟩ => rfl | ⟨1, _⟩ => rfl)
theorem idx_v17 (p : Fin 4096) (q : Fin 1024) : idx_main_v17 (ix2 p q) = ix2 p (colZ q) :=
  funext fun a => Fin.ext (by match a with | ⟨0, _⟩ => rfl | ⟨1, _⟩ => rfl)
theorem idx_v18 (p : Fin 4096) (q : Fin 1024) : idx_main_v18 (ix2 p q) = ix2 p (colN q) :=
  funext fun a => Fin.ext (by match a with | ⟨0, _⟩ => rfl | ⟨1, _⟩ => rfl)
theorem lidx_v4 (p : Fin 4096) (j : Fin 3072) (k : Fin 64) : lidx_main_v4 (ix2 p j) k = ix2 p k :=
  funext fun a => Fin.ext (by match a with | ⟨0, _⟩ => rfl | ⟨1, _⟩ => rfl)
theorem ridx_v4 (p : Fin 4096) (j : Fin 3072) (k : Fin 64) : ridx_main_v4 (ix2 p j) k = ix2 k j :=
  funext fun a => Fin.ext (by match a with | ⟨0, _⟩ => rfl | ⟨1, _⟩ => rfl)
theorem lidx_v5 (p : Fin 4096) (j : Fin 3072) (k : Fin 512) : lidx_main_v5 (ix2 p j) k = ix2 p k :=
  funext fun a => Fin.ext (by match a with | ⟨0, _⟩ => rfl | ⟨1, _⟩ => rfl)
theorem ridx_v5 (p : Fin 4096) (j : Fin 3072) (k : Fin 512) : ridx_main_v5 (ix2 p j) k = ix2 k j :=
  funext fun a => Fin.ext (by match a with | ⟨0, _⟩ => rfl | ⟨1, _⟩ => rfl)
theorem lidx_v6 (p : Fin 4096) (j : Fin 3072) (k : Fin 1024) : lidx_main_v6 (ix2 p j) k = ix2 p k :=
  funext fun a => Fin.ext (by match a with | ⟨0, _⟩ => rfl | ⟨1, _⟩ => rfl)
theorem ridx_v6 (p : Fin 4096) (j : Fin 3072) (k : Fin 1024) : ridx_main_v6 (ix2 p j) k = ix2 k j :=
  funext fun a => Fin.ext (by match a with | ⟨0, _⟩ => rfl | ⟨1, _⟩ => rfl)
/-- The bias row repeated down the batch reads the row's entry. -/
theorem idx_v8 (p : Fin 4096) (j : Fin 3072) : idx_main_v8 (ix2 p j) = ix2 (0 : Fin 1) j :=
  funext fun a => Fin.ext (by match a with | ⟨0, _⟩ => rfl | ⟨1, _⟩ => rfl)

/-! ## The last stage -/

/-- The reference's result at (p, q) is the gated-unit step of its arguments: the three wide matrices and the bias
    row are the stages that lay the nine weight matrices and the three bias vectors out. -/
theorem result_apply (x0 : (⟨S4096x1024, .f32⟩ : BufTy).Contents (Elt Ideal)) (x1 : (⟨S4096x512, .f32⟩ : BufTy).Contents (Elt Ideal)) (x2 : (⟨S4096x64, .f32⟩ : BufTy).Contents (Elt Ideal)) (x3 : (⟨S64x1024, .f32⟩ : BufTy).Contents (Elt Ideal)) (x4 : (⟨S512x1024, .f32⟩ : BufTy).Contents (Elt Ideal)) (x5 : (⟨S64x1024, .f32⟩ : BufTy).Contents (Elt Ideal)) (x6 : (⟨S512x1024, .f32⟩ : BufTy).Contents (Elt Ideal)) (x7 : (⟨S64x1024, .f32⟩ : BufTy).Contents (Elt Ideal)) (x8 : (⟨S512x1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (p : Fin 4096) (q : Fin 1024) :
    val_main_v43 (F := Ideal) x0 x1 x2 x3 x4 x5 x6 x7 x8 x9 x10 x11 x12 x13 x14 (ix2 p q)
      = cell (M := 4096) x0 x1 x2 (val_main_v0 (F := Ideal) x3 x5 x7) (val_main_v1 (F := Ideal) x4 x6 x8) (val_main_v2 (F := Ideal) x9 x11 x13)
          (val_main_v7 (F := Ideal) x10 x12 x14) p q := by
  unfold cell recur proj
  simp only [val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v6_apply, val_main_v5_apply, val_main_v4_apply, val_main_cst_apply, val_main_cst_0_apply, val_main_cst_1_apply, val_main_cst_2_apply, val_main_cst_3_apply,
    idx_v10, idx_v11, idx_v12, idx_v13, idx_v14, idx_v15, idx_v16, idx_v17, idx_v18, lidx_v4, ridx_v4, lidx_v5, ridx_v5, lidx_v6, ridx_v6, idx_v8,
    Ideal.addf_def, Ideal.subf_def, Ideal.mulf_def, Ideal.negf_def, Ideal.hostNegf_def, Ideal.hostUnary_exp_def, Ideal.hostUnary_tanh_def,
    Ideal.hostDivf_def, Ideal.ofBits_def, Ideal.ofBits_one_f32, Ideal.logistic]

end Cert.ReferenceIdeal.RefValue

end
-- ==== Proof.LibCastBroadcast.lean ====
/-
  A vector placed along one axis of a two-axis array: reshaping and broadcasting agree.

  A vector of length n laid out as the column [n, 1] by a reshape is the same array as the vector broadcast to [n, 1]
  along axis 0, and laid out as the row [1, n] the same as the vector broadcast to [1, n] along axis 1: in each
  case entry (r, 0), respectively (0, r), is the vector's entry r. (For n = 1 a broadcast reads a unit axis at
  coordinate 0, which is the same entry; the statements below ask n ≠ 1 only because the broadcast rule branches
  on it.) Nothing here depends on a program.
-/
import Idealize.ShloMosaic.Lib.Pipeline.Value
import Idealize.ShloMosaic.Lib.ValueLayout
import Idealize.ShloMosaic.Lib.ValueIdx

noncomputable section

namespace Cert.CastBroadcast

open Idealize.ShloMosaic Idealize.ShloMosaic.ValueIdx

/-- The column [n, 1] of a vector: by reshape or by broadcast along axis 0. -/
theorem col_eq {α : Type} {n : ℕ} (hn : n ≠ 1) (v : (⟨1, ![n]⟩ : Shape).Idx → α)
    (h : (⟨1, ![n]⟩ : Shape).ShapeCasts ⟨2, ![n, 1]⟩) (h' : (⟨1, ![n]⟩ : Shape).BroadcastsInDim ⟨2, ![n, 1]⟩ ![0]) :
    shapeCast ⟨2, ![n, 1]⟩ v h = broadcastInDim ⟨2, ![n, 1]⟩ ![0] h' v := by
  funext i
  obtain ⟨r, u, rfl⟩ : ∃ (r : Fin n) (u : Fin 1), i = ix2 r u := ⟨i 0, i 1, eq_ix2 i⟩
  have e1 : shapeCast ⟨2, ![n, 1]⟩ v h (ix2 r u) = v (ix1 r) :=
    shapeCast_apply v h _ _ (by
      have hu : u.val = 0 := by omega
      rw [Shape.rowMajor_val_two, Shape.rowMajor_val_one]
      show r.val = r.val * 1 + u.val
      rw [hu, Nat.mul_one, Nat.add_zero])
  have e2 : broadcastInDim ⟨2, ![n, 1]⟩ ![0] h' v (ix2 r u) = v (ix1 r) :=
    broadcastInDim_apply ![0] h' v (ix2 r u) (ix1 r) (fun a => by
      match a with
      | ⟨0, _⟩ => show r.val = if n = 1 then 0 else r.val; rw [if_neg hn])
  rw [e1, e2]

/-- The row [1, n] of a vector: by reshape or by broadcast along axis 1. -/
theorem row_eq {α : Type} {n : ℕ} (hn : n ≠ 1) (v : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ v h = broadcastInDim ⟨2, ![1, n]⟩ ![1] h' v := by
  funext i
  obtain ⟨u, r, rfl⟩ : ∃ (u : Fin 1) (r : Fin n), i = ix2 u r := ⟨i 0, i 1, eq_ix2 i⟩
  have e1 : shapeCast ⟨2, ![1, n]⟩ v h (ix2 u r) = v (ix1 r) :=
    shapeCast_apply v h _ _ (by
      have hu : u.val = 0 := by omega
      rw [Shape.rowMajor_val_two, Shape.rowMajor_val_one]
      show r.val = u.val * n + r.val
      rw [hu, Nat.zero_mul, Nat.zero_add])
  have e2 : broadcastInDim ⟨2, ![1, n]⟩ ![1] h' v (ix2 u r) = v (ix1 r) :=
    broadcastInDim_apply ![1] h' v (ix2 u r) (ix1 r) (fun a => by
      match a with
      | ⟨0, _⟩ => show r.val = if n = 1 then 0 else r.val; rw [if_neg hn])
  rw [e1, e2]

end Cert.CastBroadcast

end
-- ==== Proof.ReferenceFinal.lean ====
/-
  The reference's result as one function of its fifteen arguments.

  The reference's stages that lay the weights side by side are the step's wide matrices as they stand; its bias row is the
  end-to-end bias vector placed along the second axis of a 1 × 3072 array, which is the same array as that vector read as
  one row. With the last stage read entry by entry, the reference's result is the whole-batch step of its arguments.
-/
import proofs.«141917_j37555194036855_2_alg».proof.Proof.ReferenceValue
import proofs.«141917_j37555194036855_2_alg».proof.Proof.GruWhole
import proofs.«141917_j37555194036855_2_alg».proof.Proof.LibCastBroadcast

noncomputable section

namespace Cert.ReferenceIdeal.Final

open Idealize.ShloMosaic Idealize.ShloMosaic.TcCoe Idealize.ShloMosaic.ValueIdx Idealize.SL.Sem
open Cert.ReferenceIdeal Cert.ReferenceIdeal.Gen Cert.ReferenceIdeal.Read Cert.Gru

theorem stage_wideC (x3 x5 x7 : (⟨S64x1024, .f32⟩ : BufTy).Contents (Elt Ideal)) : val_main_v0 (F := Ideal) x3 x5 x7 = wideC x3 x5 x7 := rfl
theorem stage_wideX (x4 x6 x8 : (⟨S512x1024, .f32⟩ : BufTy).Contents (Elt Ideal)) : val_main_v1 (F := Ideal) x4 x6 x8 = wideX x4 x6 x8 := rfl
theorem stage_wideH (x9 x11 x13 : (⟨S1024x1024, .f32⟩ : BufTy).Contents (Elt Ideal)) : val_main_v2 (F := Ideal) x9 x11 x13 = wideH x9 x11 x13 := rfl

/-- The bias vector placed along the second axis of a one-row array is the vector read as one row. -/
theorem stage_biasRow (x10 x12 x14 : (⟨S1024, .f32⟩ : BufTy).Contents (Elt Ideal)) : val_main_v7 (F := Ideal) x10 x12 x14 = biasRow x10 x12 x14 := by
  unfold val_main_v7 biasRow
  exact (Cert.CastBroadcast.row_eq (n := 3072) (by decide) (biasVec x10 x12 x14) (by decide) bcast_S3072_S1x3072_1).symm

/-- The reference's last stage is the whole-batch step of its arguments. -/
theorem result_eq (x0 : (⟨S4096x1024, .f32⟩ : BufTy).Contents (Elt Ideal)) (x1 : (⟨S4096x512, .f32⟩ : BufTy).Contents (Elt Ideal)) (x2 : (⟨S4096x64, .f32⟩ : BufTy).Contents (Elt Ideal)) (x3 : (⟨S64x1024, .f32⟩ : BufTy).Contents (Elt Ideal)) (x4 : (⟨S512x1024, .f32⟩ : BufTy).Contents (Elt Ideal)) (x5 : (⟨S64x1024, .f32⟩ : BufTy).Contents (Elt Ideal)) (x6 : (⟨S512x1024, .f32⟩ : BufTy).Contents (Elt Ideal)) (x7 : (⟨S64x1024, .f32⟩ : BufTy).Contents (Elt Ideal)) (x8 : (⟨S512x1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) :
    val_main_v43 (F := Ideal) x0 x1 x2 x3 x4 x5 x6 x7 x8 x9 x10 x11 x12 x13 x14 = step x0 x1 x2 x3 x4 x5 x6 x7 x8 x9 x10 x11 x12 x13 x14 := by
  funext i
  obtain ⟨p, q, rfl⟩ : ∃ (p : Fin 4096) (q : Fin 1024), i = ix2 p q := ⟨i 0, i 1, eq_ix2 i⟩
  rw [Cert.ReferenceIdeal.RefValue.result_apply, stage_wideC, stage_wideX, stage_wideH, stage_biasRow]
  rfl

variable (m : (ℓ : Loc nD τ sig) → Buf (Elt Ideal) ℓ) (ρ : Dev nD → PrngReg)

/-- The run's result term is that step of the launch contents of the arguments. -/
theorem res_eq (c : Dev nD) : Cert.ReferenceIdeal.Value.res_main_v43 m c = step (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (val_main_v43_eq m c).trans (result_eq _ _ _ _ _ _ _ _ _ _ _ _ _ _ _)

/-- Every execution of the reference terminates without a fault, its result (returned twice) ending at the whole-batch
    step of the arguments and every argument as launched. -/
theorem run : θ_run defs (onTc (τ := τ) (main (F := Ideal))) ⟨m, fun _ => 0, ρ⟩ (fun r => ∀ c : Dev nD,
      r.2.mem ((c.tc : Thread nD τ).loc main_v43) = step (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v43) = step (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1.trans (res_eq m c), (h c).2.1.trans (res_eq m c), (h c).2.2⟩)
    (Cert.ReferenceIdeal.Value.run (F := Ideal) m ρ)

end Cert.ReferenceIdeal.Final

end
-- ==== Proof.lean ====
/-
  A gated-recurrent-unit step: a TPU kernel against its plain reference.

  Both programs compute, for a batch of 4096 rows, the new state (1 - z) · n + z · h of a gated recurrent unit from
  the carried state h, two inputs, nine weight matrices and three bias vectors. The kernel program first lays the
  weights side by side into three wide matrices and the biases into one row, then runs one pipelined region over 16
  blocks of 256 rows; each block forms three wide products on the matrix unit, the two gates and the candidate, and the
  blend. The reference does the same on the whole batch with the logistic function spelt out.

  The frames: each program runs to the end, faults nowhere and leaves its fifteen arguments as launched (the kernel
  program's at the word level and on the extended reals, by the run of its region; the reference's by its run). No
  operation of the kernel was rewritten for the extended reals, so there is nothing to preserve. The equivalence: on the
  extended reals both results are the same function of the arguments, entry by entry. Narrowing to the 16-bit format is the
  identity there, a product started from zero is the plain sum, the blocks of rows tile the batch and a row of the step
  reads the batch on that row only, and 1 / (1 + e^(-a)) is the logistic function. No finiteness of the inputs is used.
-/
import proofs.«141917_j37555194036855_2_alg».proof.Defs
import proofs.«141917_j37555194036855_2_alg».proof.Proof.KernelBody
import proofs.«141917_j37555194036855_2_alg».proof.Proof.KernelIdealBody
import proofs.«141917_j37555194036855_2_alg».proof.Proof.KernelFinal
import proofs.«141917_j37555194036855_2_alg».proof.Proof.ReferenceFinal
import proofs.«141917_j37555194036855_2_alg».proof.Proof.Gen.Kernel
import proofs.«141917_j37555194036855_2_alg».proof.Proof.Gen.KernelIdeal
import proofs.«141917_j37555194036855_2_alg».proof.Proof.Gen.ReferenceIdeal
import proofs.«141917_j37555194036855_2_alg».proof.Proof.Gen.ReferenceIdeal.Run
import proofs.«141917_j37555194036855_2_alg».proof.Proof.Gen.ReferenceIdeal.Read
import proofs.«141917_j37555194036855_2_alg».proof.Proof.Gen.Pre_finite_inputs
import Idealize.ShloMosaic.Adequacy
import Idealize.ShloMosaic.Init

noncomputable section

namespace Cert.Proof

open Idealize.ShloMosaic Idealize.SL.Sem

/-- The kernel program at the word level runs to the end and leaves its arguments as launched. -/
theorem frame_k : Cert.frame_Kernel := fun m ρ _ =>
  (θ_run Cert.Kernel.defs _ _).mono (fun _ h c => (h c).2) (Cert.Kernel.Region.run_result (F := Bits) m ρ)

/-- The same on the extended reals. -/
theorem frame_ki : Cert.frame_KernelIdeal := fun m ρ _ =>
  (θ_run Cert.KernelIdeal.defs _ _).mono (fun _ h c => (h c).2) (Cert.KernelIdeal.Region.run_result (F := Ideal) m ρ)

/-- The reference runs to the end and leaves its arguments as launched. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing of the kernel was rewritten for the extended reals. -/
theorem preserves : Cert.preserves_Kernel_KernelIdeal := trivial

/-- From memories that agree on the arguments both programs end with the whole-batch step of those arguments. -/
theorem algebraic : Cert.algebraic_KernelIdeal_ReferenceIdeal := by
  intro m ρ m' ρ' _ hagree
  refine ⟨_, _, Cert.KernelIdeal.Final.run m ρ, ?_⟩
  refine (θ_run Cert.ReferenceIdeal.defs _ _).mono (fun _ h c => ?_) (Cert.ReferenceIdeal.Final.run m' ρ')
  obtain ⟨a0, a1, a2, a3, a4, a5, a6, a7, a8, a9, a10, a11, a12, a13, a14⟩ := hagree c
  refine ⟨(h c).1.trans ?_, (h c).2.1.trans ?_, (h c).2.2⟩
  · rw [a0, a1, a2, a3, a4, a5, a6, a7, a8, a9, a10, a11, a12, a13, a14]
  · rw [a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
